-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x256 : Shape := ⟨2, ![12000, 256]⟩
abbrev S2x384000 : Shape := ⟨2, ![2, 384000]⟩
abbrev S256x128 : Shape := ⟨2, ![256, 128]⟩
abbrev S128 : Shape := ⟨1, ![128]⟩
abbrev S_ : Shape := ⟨0, ![]⟩

class Facts : Prop where
  bcast_S_S12000x256 : S_.BroadcastsInDim S12000x256 (![] : Fin 0 → Fin S12000x256.rank)
  reducesTo_S12000x256_S_d0_1 : S12000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S12000x256 .f32) (main_arg1 : IVec S2x384000 32) (main_arg2 : FVec F S256x128 .f32) (main_arg3 : FVec F S128 .f32) (main_arg4 : FVec F S128 .f32) (main_arg5 : FVec F S128 .f32) : IVec S_ 1 :=
  let main_v0 : FVec F S12000x256 .f32 := Host.absf main_arg0
  let main_cst : FVec F S_ .f32 := constant S_ .f32 0x7F800000#32
  let main_v1 : FVec F S12000x256 .f32 := broadcastInDim S12000x256 ![] bcast_S_S12000x256 main_cst
  let main_v2 : IVec S12000x256 1 := cmpf .olt main_v0 main_v1
  let main_c : IVec S_ 1 := constantI S_ 1 1#1
  let main_v3 : IVec S_ 1 := (fun x v => Host.reduce IntOp.andi x v reducesTo_S12000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S12000x256 : Shape := ⟨2, ![12000, 256]⟩
abbrev S2x384000 : Shape := ⟨2, ![2, 384000]⟩
abbrev S256x128 : Shape := ⟨2, ![256, 128]⟩
abbrev S128 : Shape := ⟨1, ![128]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x128 : Shape := ⟨2, ![12000, 128]⟩
abbrev S396000x128 : Shape := ⟨2, ![396000, 128]⟩
abbrev S1x128 : Shape := ⟨2, ![1, 128]⟩
abbrev S12000x12000 : Shape := ⟨2, ![12000, 12000]⟩
abbrev S1536x128 : Shape := ⟨2, ![1536, 128]⟩
abbrev S1536x1536 : Shape := ⟨2, ![1536, 1536]⟩

abbrev nBuf : Space → Nat
  | .hbm => 93
  | .vmem => 6
  | .smem => 0
  | _ => 0

abbrev bufTy : (tb : Table) → Fin (tcTables nBuf tb) → BufTy
  | .hbm, ⟨0, _⟩ => ⟨S12000x256, .f32⟩
  | .hbm, ⟨1, _⟩ => ⟨S2x384000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S12000, .i32⟩
  | .hbm, ⟨7, _⟩ => ⟨S1x384000, .i32⟩
  | .hbm, ⟨8, _⟩ => ⟨S384000, .i32⟩
  | .hbm, ⟨9, _⟩ => ⟨S396000, .i32⟩
  | .hbm, ⟨10, _⟩ => ⟨S1x384000, .i32⟩
  | .hbm, ⟨11, _⟩ => ⟨S384000, .i32⟩
  | .hbm, ⟨12, _⟩ => ⟨S396000, .i32⟩
  | .hbm, ⟨13, _⟩ => ⟨S_, .f32⟩
  | .hbm, ⟨14, _⟩ => ⟨S396000, .f32⟩
  | .hbm, ⟨15, _⟩ => ⟨S_, .f32⟩
  | .hbm, ⟨16, _⟩ => ⟨S12000, .f32⟩
  | .hbm, ⟨17, _⟩ => ⟨S396000x1, .i32⟩
  | .hbm, ⟨18, _⟩ => ⟨S12000, .f32⟩
  | .hbm, ⟨19, _⟩ => ⟨S12000, .f32⟩
  | .hbm, ⟨20, _⟩ => ⟨S_, .i32⟩
  | .hbm, ⟨21, _⟩ => ⟨S396000, .i32⟩
  | .hbm, ⟨22, _⟩ => ⟨S396000, .i1⟩
  | .hbm, ⟨23, _⟩ => ⟨S_, .i32⟩
  | .hbm, ⟨24, _⟩ => ⟨S396000, .i32⟩
  | .hbm, ⟨25, _⟩ => ⟨S396000, .i32⟩
  | .hbm, ⟨26, _⟩ => ⟨S396000, .i32⟩
  | .hbm, ⟨27, _⟩ => ⟨S396000x1, .i32⟩
  | .hbm, ⟨28, _⟩ => ⟨S396000, .f32⟩
  | .hbm, ⟨29, _⟩ => ⟨S_, .i32⟩
  | .hbm, ⟨30, _⟩ => ⟨S396000, .i32⟩
  | .hbm, ⟨31, _⟩ => ⟨S396000, .i1⟩
  | .hbm, ⟨32, _⟩ => ⟨S_, .i32⟩
  | .hbm, ⟨33, _⟩ => ⟨S396000, .i32⟩
  | .hbm, ⟨34, _⟩ => ⟨S396000, .i32⟩
  | .hbm, ⟨35, _⟩ => ⟨S396000, .i32⟩
  | .hbm, ⟨36, _⟩ => ⟨S396000x1, .i32⟩
  | .hbm, ⟨37, _⟩ => ⟨S396000, .f32⟩
  | .hbm, ⟨38, _⟩ => ⟨S396000, .f32⟩
  | .hbm, ⟨39, _⟩ => ⟨S12000x128, .f32⟩
  | .hbm, ⟨40, _⟩ => ⟨S_, .i32⟩
  | .hbm, ⟨41, _⟩ => ⟨S396000, .i32⟩
  | .hbm, ⟨42, _⟩ => ⟨S396000, .i1⟩
  | .hbm, ⟨43, _⟩ => ⟨S_, .i32⟩
  | .hbm, ⟨44, _⟩ => ⟨S396000, .i32⟩
  | .hbm, ⟨45, _⟩ => ⟨S396000, .i32⟩
  | .hbm, ⟨46, _⟩ => ⟨S396000, .i32⟩
  | .hbm, ⟨47, _⟩ => ⟨S396000x1, .i32⟩
  | .hbm, ⟨48, _⟩ => ⟨S396000x128, .f32⟩
  | .hbm, ⟨49, _⟩ => ⟨S396000x1, .f32⟩
  | .hbm, ⟨50, _⟩ => ⟨S396000x128, .f32⟩
  | .hbm, ⟨51, _⟩ => ⟨S396000x128, .f32⟩
  | .hbm, ⟨52, _⟩ => ⟨S_, .f32⟩
  | .hbm, ⟨53, _⟩ => ⟨S12000x128, .f32⟩
  | .hbm, ⟨54, _⟩ => ⟨S396000x1, .i32⟩
  | .hbm, ⟨55, _⟩ => ⟨S12000x128, .f32⟩
  | .hbm, ⟨56, _⟩ => ⟨S1x128, .f32⟩
  | .hbm, ⟨57, _⟩ => ⟨S12000x128, .f32⟩
  | .hbm, ⟨58, _⟩ => ⟨S12000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S12000x128, .f32⟩
  | .hbm, ⟨66, _⟩ => ⟨S12000x128, .f32⟩
  | .hbm, ⟨67, _⟩ => ⟨S12000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S12000x128, .f32⟩
  | .hbm, ⟨75, _⟩ => ⟨S12000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S12000x128, .f32⟩
  | .hbm, ⟨82, _⟩ => ⟨S12000x128, .f32⟩
  | .hbm, ⟨83, _⟩ => ⟨S1x128, .f32⟩
  | .hbm, ⟨84, _⟩ => ⟨S12000x128, .f32⟩
  | .hbm, ⟨85, _⟩ => ⟨S12000x128, .f32⟩
  | .hbm, ⟨86, _⟩ => ⟨S1x128, .f32⟩
  | .hbm, ⟨87, _⟩ => ⟨S12000x128, .f32⟩
  | .hbm, ⟨88, _⟩ => ⟨S12000x128, .f32⟩
  | .hbm, ⟨89, _⟩ => ⟨S_, .f32⟩
  | .hbm, ⟨90, _⟩ => ⟨S12000x128, .f32⟩
  | .hbm, ⟨91, _⟩ => ⟨S12000x128, .f32⟩
  | .hbm, ⟨92, _⟩ => ⟨S12000x12000, .f32⟩
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x1536, .f32⟩
  | .local _ .vmem, ⟨5, _⟩ => ⟨S1536x1536, .f32⟩
  | _, _ => ⟨S12000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_cst : Ref sig .tc := ⟨.hbm, 89, rfl⟩
abbrev main_call0_v0 : Ref sig .tc := ⟨.hbm, 90, rfl⟩
abbrev main_v69 : Ref sig .tc := ⟨.hbm, 91, rfl⟩
abbrev main_v70 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x128_0_1 : S396000x1.BroadcastsInDim S396000x128 (![0, 1] : Fin 2 → Fin S396000x128.rank)
  bcast_S_S12000x128 : S_.BroadcastsInDim S12000x128 (![] : Fin 0 → Fin S12000x128.rank)
  bcast_S128_S1x128_1 : S128.BroadcastsInDim S1x128 (![1] : Fin 1 → Fin S1x128.rank)
  bcast_S1x128_S12000x128_0_1 : S1x128.BroadcastsInDim S12000x128 (![0, 1] : Fin 2 → Fin S12000x128.rank)
  reducesTo_S12000x128_S128_d0 : S12000x128.ReducesTo [0] S128
  h_S_ : 0 < S_.numel
  bcast_S_S128 : S_.BroadcastsInDim S128 (![] : Fin 0 → Fin S128.rank)
  inb_S1536x128_S1536x128_0_0 : ∀ a, (![0, 0] : Fin 2 → Nat) a + S1536x128.size a ≤ S1536x128.size a
  h_S1536x128 : 0 < S1536x128.numel
  shapeCasts_S1536x128_S1536x128 : S1536x128.ShapeCasts S1536x128
  inb_S1536x1536_S1536x1536_0_0 : ∀ a, (![0, 0] : Fin 2 → Nat) a + S1536x1536.size a ≤ S1536x1536.size a
  h_S1536x1536 : 0 < S1536x1536.numel
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x256_S256x128_S12000x128_1_0_0_1_n_n_wf : DotDims.WF S12000x256 S256x128 S12000x128 [1] [0] [0] [1] [] []
  gather_S12000x128_S396000x1_S396000x128_1_0_n_n_0_1_1128_wf : GatherDims.WF S12000x128 S396000x1 S396000x128 [1] [0] [] [0] [] 1 ![1, 128]
  scatter_S12000x128_S396000x1_S396000x128_1_0_0_1_wf : ScatterDims.WF S12000x128 S396000x1 S396000x128 [1] [0] [0] 1
  dot_S1536x128_S1536x128_S1536x1536_1_1_0_0_n_n_wf : DotDims.WF S1536x128 S1536x128 S1536x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1536x128.size a < S12000x128.size a
  hwx0_0 : ∀ i : grid0.Coords, EltTy.bits .f32 = 32 ∨ (Rect.unit (s := S12000x128) (fun a => cc0_transform_0 i a * S1536x128.size a) (fun a => (Pipeline.Clip.of (cc0_transform_0 i a) (S1536x128.size a) (S12000x128.size a)).extent (S1536x128.size a)) fun a => Pipeline.Clip.inb (Pipeline.Clip.ok_of (hstart0_0 i a))).WholeWords (EltTy.packing .f32)
  hwxs0_0 : ∀ i : grid0.Coords, EltTy.bits .f32 = 32 ∨ (Rect.unit (s := S1536x128) (fun _ => 0) (fun a => (Pipeline.Clip.of (cc0_transform_0 i a) (S1536x128.size a) (S12000x128.size a)).extent (S1536x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1536x128.size a < S12000x128.size a
  hwx0_1 : ∀ i : grid0.Coords, EltTy.bits .f32 = 32 ∨ (Rect.unit (s := S12000x128) (fun a => cc0_transform_1 i a * S1536x128.size a) (fun a => (Pipeline.Clip.of (cc0_transform_1 i a) (S1536x128.size a) (S12000x128.size a)).extent (S1536x128.size a)) fun a => Pipeline.Clip.inb (Pipeline.Clip.ok_of (hstart0_1 i a))).WholeWords (EltTy.packing .f32)
  hwxs0_1 : ∀ i : grid0.Coords, EltTy.bits .f32 = 32 ∨ (Rect.unit (s := S1536x128) (fun _ => 0) (fun a => (Pipeline.Clip.of (cc0_transform_1 i a) (S1536x128.size a) (S12000x128.size a)).extent (S1536x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1536x1536.size a < S12000x12000.size a
  hwx0_2 : ∀ i : grid0.Coords, EltTy.bits .f32 = 32 ∨ (Rect.unit (s := S12000x12000) (fun a => cc0_transform_2 i a * S1536x1536.size a) (fun a => (Pipeline.Clip.of (cc0_transform_2 i a) (S1536x1536.size a) (S12000x12000.size a)).extent (S1536x1536.size a)) fun a => Pipeline.Clip.inb (Pipeline.Clip.ok_of (hstart0_2 i a))).WholeWords (EltTy.packing .f32)
  hwxs0_2 : ∀ i : grid0.Coords, EltTy.bits .f32 = 32 ∨ (Rect.unit (s := S1536x1536) (fun _ => 0) (fun a => (Pipeline.Clip.of (cc0_transform_2 i a) (S1536x1536.size a) (S12000x12000.size a)).extent (S1536x1536.size a)) fun a => (Nat.zero_add _).trans_le (Pipeline.Clip.extent_le (Pipeline.Clip.ok_of (hstart0_2 i a)))).WholeWords (EltTy.packing .f32)

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x256_S256x128_S12000x128_1_0_0_1_n_n : DotDims S12000x256 S256x128 S12000x128 where
  lhsContracting := [1]
  rhsContracting := [0]
  lhsNonContracting := [0]
  rhsNonContracting := [1]
  lhsBatch := []
  rhsBatch := []
  wf := dot_S12000x256_S256x128_S12000x128_1_0_0_1_n_n_wf
def gather_S12000x128_S396000x1_S396000x128_1_0_n_n_0_1_1128 : GatherDims S12000x128 S396000x1 S396000x128 where
  offsetDims := [1]
  collapsedSliceDims := [0]
  operandBatchingDims := []
  startIndicesBatchingDims := []
  startIndexMap := [0]
  indexVectorDim := 1
  sliceSizes := ![1, 128]
  wf := gather_S12000x128_S396000x1_S396000x128_1_0_n_n_0_1_1128_wf
def scatter_S12000x128_S396000x1_S396000x128_1_0_0_1 : ScatterDims S12000x128 S396000x1 S396000x128 where
  updateWindowDims := [1]
  insertedWindowDims := [0]
  scatterDimsToOperandDims := [0]
  indexVectorDim := 1
  wf := scatter_S12000x128_S396000x1_S396000x128_1_0_0_1_wf
def dot_S1536x128_S1536x128_S1536x1536_1_1_0_0_n_n : DotDims S1536x128 S1536x128 S1536x1536 where
  lhsContracting := [1]
  rhsContracting := [1]
  lhsNonContracting := [0]
  rhsNonContracting := [0]
  lhsBatch := []
  rhsBatch := []
  wf := dot_S1536x128_S1536x128_S1536x1536_1_1_0_0_n_n_wf

abbrev win0_0 : Pipeline.Window sig grid0 :=
  Pipeline.Window.ofSpecClip (Memref.whole main_v69) S1536x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v69) S1536x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v70) S1536x1536.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S12000x256 : Shape := ⟨2, ![12000, 256]⟩
abbrev S2x384000 : Shape := ⟨2, ![2, 384000]⟩
abbrev S256x128 : Shape := ⟨2, ![256, 128]⟩
abbrev S128 : Shape := ⟨1, ![128]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x128 : Shape := ⟨2, ![12000, 128]⟩
abbrev S396000x128 : Shape := ⟨2, ![396000, 128]⟩
abbrev S1x128 : Shape := ⟨2, ![1, 128]⟩
abbrev S128x12000 : Shape := ⟨2, ![128, 12000]⟩
abbrev S12000x12000 : Shape := ⟨2, ![12000, 12000]⟩

abbrev nBuf : Space → Nat
  | .hbm => 94
  | .vmem => 0
  | .smem => 0
  | _ => 0

abbrev bufTy : (tb : Table) → Fin (tcTables nBuf tb) → BufTy
  | .hbm, ⟨0, _⟩ => ⟨S12000x256, .f32⟩
  | .hbm, ⟨1, _⟩ => ⟨S2x384000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S12000, .i32⟩
  | .hbm, ⟨7, _⟩ => ⟨S1x384000, .i32⟩
  | .hbm, ⟨8, _⟩ => ⟨S384000, .i32⟩
  | .hbm, ⟨9, _⟩ => ⟨S396000, .i32⟩
  | .hbm, ⟨10, _⟩ => ⟨S1x384000, .i32⟩
  | .hbm, ⟨11, _⟩ => ⟨S384000, .i32⟩
  | .hbm, ⟨12, _⟩ => ⟨S396000, .i32⟩
  | .hbm, ⟨13, _⟩ => ⟨S_, .f32⟩
  | .hbm, ⟨14, _⟩ => ⟨S396000, .f32⟩
  | .hbm, ⟨15, _⟩ => ⟨S_, .f32⟩
  | .hbm, ⟨16, _⟩ => ⟨S12000, .f32⟩
  | .hbm, ⟨17, _⟩ => ⟨S396000x1, .i32⟩
  | .hbm, ⟨18, _⟩ => ⟨S12000, .f32⟩
  | .hbm, ⟨19, _⟩ => ⟨S12000, .f32⟩
  | .hbm, ⟨20, _⟩ => ⟨S_, .i32⟩
  | .hbm, ⟨21, _⟩ => ⟨S396000, .i32⟩
  | .hbm, ⟨22, _⟩ => ⟨S396000, .i1⟩
  | .hbm, ⟨23, _⟩ => ⟨S_, .i32⟩
  | .hbm, ⟨24, _⟩ => ⟨S396000, .i32⟩
  | .hbm, ⟨25, _⟩ => ⟨S396000, .i32⟩
  | .hbm, ⟨26, _⟩ => ⟨S396000, .i32⟩
  | .hbm, ⟨27, _⟩ => ⟨S396000x1, .i32⟩
  | .hbm, ⟨28, _⟩ => ⟨S396000, .f32⟩
  | .hbm, ⟨29, _⟩ => ⟨S_, .i32⟩
  | .hbm, ⟨30, _⟩ => ⟨S396000, .i32⟩
  | .hbm, ⟨31, _⟩ => ⟨S396000, .i1⟩
  | .hbm, ⟨32, _⟩ => ⟨S_, .i32⟩
  | .hbm, ⟨33, _⟩ => ⟨S396000, .i32⟩
  | .hbm, ⟨34, _⟩ => ⟨S396000, .i32⟩
  | .hbm, ⟨35, _⟩ => ⟨S396000, .i32⟩
  | .hbm, ⟨36, _⟩ => ⟨S396000x1, .i32⟩
  | .hbm, ⟨37, _⟩ => ⟨S396000, .f32⟩
  | .hbm, ⟨38, _⟩ => ⟨S396000, .f32⟩
  | .hbm, ⟨39, _⟩ => ⟨S12000x128, .f32⟩
  | .hbm, ⟨40, _⟩ => ⟨S_, .i32⟩
  | .hbm, ⟨41, _⟩ => ⟨S396000, .i32⟩
  | .hbm, ⟨42, _⟩ => ⟨S396000, .i1⟩
  | .hbm, ⟨43, _⟩ => ⟨S_, .i32⟩
  | .hbm, ⟨44, _⟩ => ⟨S396000, .i32⟩
  | .hbm, ⟨45, _⟩ => ⟨S396000, .i32⟩
  | .hbm, ⟨46, _⟩ => ⟨S396000, .i32⟩
  | .hbm, ⟨47, _⟩ => ⟨S396000x1, .i32⟩
  | .hbm, ⟨48, _⟩ => ⟨S396000x128, .f32⟩
  | .hbm, ⟨49, _⟩ => ⟨S396000x1, .f32⟩
  | .hbm, ⟨50, _⟩ => ⟨S396000x128, .f32⟩
  | .hbm, ⟨51, _⟩ => ⟨S396000x128, .f32⟩
  | .hbm, ⟨52, _⟩ => ⟨S_, .f32⟩
  | .hbm, ⟨53, _⟩ => ⟨S12000x128, .f32⟩
  | .hbm, ⟨54, _⟩ => ⟨S396000x1, .i32⟩
  | .hbm, ⟨55, _⟩ => ⟨S12000x128, .f32⟩
  | .hbm, ⟨56, _⟩ => ⟨S1x128, .f32⟩
  | .hbm, ⟨57, _⟩ => ⟨S12000x128, .f32⟩
  | .hbm, ⟨58, _⟩ => ⟨S12000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S12000x128, .f32⟩
  | .hbm, ⟨66, _⟩ => ⟨S12000x128, .f32⟩
  | .hbm, ⟨67, _⟩ => ⟨S12000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S12000x128, .f32⟩
  | .hbm, ⟨75, _⟩ => ⟨S12000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S12000x128, .f32⟩
  | .hbm, ⟨82, _⟩ => ⟨S12000x128, .f32⟩
  | .hbm, ⟨83, _⟩ => ⟨S1x128, .f32⟩
  | .hbm, ⟨84, _⟩ => ⟨S12000x128, .f32⟩
  | .hbm, ⟨85, _⟩ => ⟨S12000x128, .f32⟩
  | .hbm, ⟨86, _⟩ => ⟨S1x128, .f32⟩
  | .hbm, ⟨87, _⟩ => ⟨S12000x128, .f32⟩
  | .hbm, ⟨88, _⟩ => ⟨S12000x128, .f32⟩
  | .hbm, ⟨89, _⟩ => ⟨S_, .f32⟩
  | .hbm, ⟨90, _⟩ => ⟨S12000x128, .f32⟩
  | .hbm, ⟨91, _⟩ => ⟨S12000x128, .f32⟩
  | .hbm, ⟨92, _⟩ => ⟨S128x12000, .f32⟩
  | .hbm, ⟨93, _⟩ => ⟨S12000x12000, .f32⟩
  | _, _ => ⟨S12000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_cst : Ref sig .tc := ⟨.hbm, 89, rfl⟩
abbrev main_call0_v0 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x128_0_1 : S396000x1.BroadcastsInDim S396000x128 (![0, 1] : Fin 2 → Fin S396000x128.rank)
  bcast_S_S12000x128 : S_.BroadcastsInDim S12000x128 (![] : Fin 0 → Fin S12000x128.rank)
  bcast_S128_S1x128_1 : S128.BroadcastsInDim S1x128 (![1] : Fin 1 → Fin S1x128.rank)
  bcast_S1x128_S12000x128_0_1 : S1x128.BroadcastsInDim S12000x128 (![0, 1] : Fin 2 → Fin S12000x128.rank)
  reducesTo_S12000x128_S128_d0 : S12000x128.ReducesTo [0] S128
  h_S_ : 0 < S_.numel
  bcast_S_S128 : S_.BroadcastsInDim S128 (![] : Fin 0 → Fin S128.rank)
  transposes_S12000x128_S128x12000_1_0 : S12000x128.Transposes [1, 0] S128x12000
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x256_S256x128_S12000x128_1_0_0_1_n_n_wf : DotDims.WF S12000x256 S256x128 S12000x128 [1] [0] [0] [1] [] []
  gather_S12000x128_S396000x1_S396000x128_1_0_n_n_0_1_1128_wf : GatherDims.WF S12000x128 S396000x1 S396000x128 [1] [0] [] [0] [] 1 ![1, 128]
  scatter_S12000x128_S396000x1_S396000x128_1_0_0_1_wf : ScatterDims.WF S12000x128 S396000x1 S396000x128 [1] [0] [0] 1
  dot_S12000x128_S128x12000_S12000x12000_1_0_0_1_n_n_wf : DotDims.WF S12000x128 S128x12000 S12000x12000 [1] [0] [0] [1] [] []

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x256_S256x128_S12000x128_1_0_0_1_n_n : DotDims S12000x256 S256x128 S12000x128 where
  lhsContracting := [1]
  rhsContracting := [0]
  lhsNonContracting := [0]
  rhsNonContracting := [1]
  lhsBatch := []
  rhsBatch := []
  wf := dot_S12000x256_S256x128_S12000x128_1_0_0_1_n_n_wf
def gather_S12000x128_S396000x1_S396000x128_1_0_n_n_0_1_1128 : GatherDims S12000x128 S396000x1 S396000x128 where
  offsetDims := [1]
  collapsedSliceDims := [0]
  operandBatchingDims := []
  startIndicesBatchingDims := []
  startIndexMap := [0]
  indexVectorDim := 1
  sliceSizes := ![1, 128]
  wf := gather_S12000x128_S396000x1_S396000x128_1_0_n_n_0_1_1128_wf
def scatter_S12000x128_S396000x1_S396000x128_1_0_0_1 : ScatterDims S12000x128 S396000x1 S396000x128 where
  updateWindowDims := [1]
  insertedWindowDims := [0]
  scatterDimsToOperandDims := [0]
  indexVectorDim := 1
  wf := scatter_S12000x128_S396000x1_S396000x128_1_0_0_1_wf
def dot_S12000x128_S128x12000_S12000x12000_1_0_0_1_n_n : DotDims S12000x128 S128x12000 S12000x12000 where
  lhsContracting := [1]
  rhsContracting := [0]
  lhsNonContracting := [0]
  rhsNonContracting := [1]
  lhsBatch := []
  rhsBatch := []
  wf := dot_S12000x128_S128x12000_S12000x12000_1_0_0_1_n_n_wf

class Facts : Prop extends Facts₀ where

variable [Facts]
-- ==== Proof.TileBits.lean ====
/-
  One output tile of the decoder. The kernel body reads its two staged row blocks (1536 rows of 128 features each),
  multiplies the first by the transpose of the second on the matrix unit into a zero accumulator, and stores the
  1536 x 1536 product over the whole staged output tile. Stated for any float instance: the tile the body leaves is
  the product term of the two blocks it was handed, whatever they hold.
-/
import proofs.«102192_j20822001451042_2_alg».proof.Proof.Gen.Kernel.Launch
import proofs.«102192_j20822001451042_2_alg».proof.Proof.Gen.Kernel.Skeleton
import proofs.«102192_j20822001451042_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole of a staged row block, and the whole of a staged output tile: the body's three accesses. -/
abbrev rowsAll : Rect S1536x128 := Rect.unit (s := S1536x128) ![0, 0] S1536x128.size inb_S1536x128_S1536x128_0_0
abbrev tileAll : Rect S1536x1536 := Rect.unit (s := S1536x1536) ![0, 0] S1536x1536.size inb_S1536x1536_S1536x1536_0_0

/-- What the body's one store leaves in the staged output tile, from the two staged row blocks. -/
def tileOut (x0 x1 : Vec F S1536x128 .f32) : Vec F S1536x1536 .f32 :=
  View.canon [⟨tileAll, k0_pay1 (View.ld x0 rowsAll) (View.ld x1 rowsAll)⟩]

/-- The store is of the whole tile: every entry of the tile is written. -/
theorem tile_covered (p0 : Vec F S1536x1536 .f32) (y : S1536x1536.Idx) :
    ∃ pc ∈ ([⟨tileAll, p0⟩] : List (View.Piece (Elt F) S1536x1536 .f32)), y ∈ pc.1.set :=
  View.cover_of_tiled [⟨tileAll, p0⟩] S1536x1536.size (by rfl) y

set_option maxHeartbeats 1000000 in
/-- The body on three whole staging memrefs, the row blocks at `x0`, `x1` and the output tile at anything: it ends
    with the row blocks as they were and the tile at `tileOut x0 x1`. -/
theorem sound_tile (c : Dev nD) (E : Set ℕ) (i : grid0.Coords)
    (a0 : Memref sig .tc .vmem S1536x128 .f32) (h0 : a0.IsWhole) (a1 : Memref sig .tc .vmem S1536x128 .f32) (h1 : a1.IsWhole)
    (a2 : Memref sig .tc .vmem S1536x1536 .f32) (h2 : a2.IsWhole)
    (x0 x1 : Vec F S1536x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
              ∗ owns (c : Thread nD τ) a2 fullShare (tileOut x0 x1)) -∗ K ⟨⟩))
      ⊢ wp frame (wpE (defs₀ (F := F)) Variants.none c none) E (cc0__decode_kernel i a0 h0 a1 h1 a2 h2) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

end Cert.Kernel.Tile

end
-- ==== Proof.EntryBits.lean ====
/-
  @main up to the decoder's region. The host lines before the region (the graph convolution, the batch normalisation
  and the rectifier) run first; the region is entered with every array at what those lines leave, and none of them
  writes an argument array.
-/
import proofs.«102192_j20822001451042_2_alg».proof.Proof.Gen.Kernel.Launch
import Idealize.ShloMosaic.Lib.Pipeline.Frame
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- Core `c`'s arrays when the region is entered: the launch contents run through the host lines before it. -/
abbrev V (c : Dev nD) (b : Ref sig .tc) : Buf (Elt F) ((c : Thread nD τ).loc b) :=
  StableHlo.after (List.flatten [hostOps0, hostOps0_1]) (fun b => m (c, b)) b

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the host lines and then the region: the region is entered holding the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

set_option maxHeartbeats 4000000 in
/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Entry

end
-- ==== Proof.DataBits.lean ====
/-
  The decoder's proof data. The rectified features `z` (12000 rows of 128) are staged twice: window 0 brings the
  row block of grid row `i`, window 1 the row block of grid column `j` of the SAME array, and window 2 takes back
  the 1536 x 1536 tile of `z zᵀ` at (i, j). 12000 is not a multiple of 1536, so the last block on each axis
  overhangs the array: only its part inside the array is moved, and past it a staged buffer holds words nothing
  names. After the body each input buffer is described as its block filled out with the zero word, and the output
  buffer as the body's product of those two; the obligation speaks of the parts inside the array only.
-/
import proofs.«102192_j20822001451042_2_alg».proof.Proof.TileBits
import proofs.«102192_j20822001451042_2_alg».proof.Proof.EntryBits
import Idealize.ShloMosaic.Lib.Pipeline.Kit

set_option maxRecDepth 16384

noncomputable section

namespace Cert.Kernel.Decode

open Cert.Kernel Cert.Kernel.Gen Cert.Kernel.Entry Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The part inside the array of the row block that grid row `i` reads, and of the one grid column `j` reads. -/
def rowBlk (c : Dev nD) (t : Fin cfg0.N) : (win0_0.xblock (grid0.coords t)).Idx → Elt F .f32 :=
  (win0_0.blk t).view.read (Elt F) (V m c main_v69)
def colBlk (c : Dev nD) (t : Fin cfg0.N) : (win0_1.xblock (grid0.coords t)).Idx → Elt F .f32 :=
  (win0_1.blk t).view.read (Elt F) (V m c main_v69)

/-- The staged buffers after the body: each block filled out past the array's end with the zero word, and the
    product tile of those two. -/
def rowBuf (c : Dev nD) (t : Fin cfg0.N) : S1536x128.Idx → Elt F .f32 :=
  win0_0.fill (grid0.coords t) (fun _ => Scalar.ofBits .f32 0#32) (rowBlk m c t)
def colBuf (c : Dev nD) (t : Fin cfg0.N) : S1536x128.Idx → Elt F .f32 :=
  win0_1.fill (grid0.coords t) (fun _ => Scalar.ofBits .f32 0#32) (colBlk m c t)
def tileBuf (c : Dev nD) (t : Fin cfg0.N) : S1536x1536.Idx → Elt F .f32 :=
  tileOut (rowBuf m c t) (colBuf m c t)

/-- The proof data on core `c`: the arrays as the region finds them; the staged buffers after the body; no
    invariant; nothing owed; the shared input array held half by each of its two windows. -/
def dats (_ : Fin 1) (c : Dev nD) : Dat τ (Elt F) Unit ℕ (UR sig nD τ) ℕ cfg0 c where
  A w := V m c (Pipeline.arrRef spec0 w)
  after w t := match w with
    | ⟨0, _⟩ => rowBuf m c t
    | ⟨1, _⟩ => colBuf m c t
    | ⟨2, _⟩ => tileBuf m c t
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = rowBuf m c t := by dsimp only [dats]
theorem after_1 (c : Dev nD) (t : Fin cfg0.N) : (dats m 0 c).after 1 t = colBuf m c t := by dsimp only [dats]
theorem after_2 (c : Dev nD) (t : Fin cfg0.N) : (dats m 0 c).after 2 t = tileBuf m c t := by dsimp only [dats]

/-- An input buffer holds, whenever the body runs, its block on the part inside the array (fetched at this point,
    or at an earlier one with the same block index and left in place) and anything past it. -/
theorem before_0 (c : Dev nD) (t : Fin cfg0.N) (d) :
    (dats m 0 c).before (0 : Fin 3) t d = win0_0.fill (grid0.coords t) d (rowBlk m c t) := by
  rw [(dats m 0 c).before_in_eq_fetched (0 : Fin 3) rfl (fun _ => rfl)
    (fun t t' h => funext fun a => congrArg (fun k => Pipeline.Clip.of k (S1536x128.size a) (S12000x128.size a)) (congrFun h a))
    (fun t => by rw [after_0]; exact win0_0.cut_fill _ _ _) t d]
  rfl
theorem before_1 (c : Dev nD) (t : Fin cfg0.N) (d) :
    (dats m 0 c).before (1 : Fin 3) t d = win0_1.fill (grid0.coords t) d (colBlk m c t) := by
  rw [(dats m 0 c).before_in_eq_fetched (1 : Fin 3) rfl (fun _ => rfl)
    (fun t t' h => funext fun a => congrArg (fun k => Pipeline.Clip.of k (S1536x128.size a) (S12000x128.size a)) (congrFun h a))
    (fun t => by rw [after_1]; exact win0_1.cut_fill _ _ _) t d]
  rfl

/-- The buffers behind the windows' arrays are two: the rectified features and the result. -/
theorem arrRefs_eq : Finset.univ.image (Pipeline.arrRef spec0) = {main_v69, main_v70} := by decide

/-- The rectified features, held whole by the launch, are dealt half to each of the two windows that read them; the
    result goes whole to its window. -/
theorem arrays_dealt (c : Dev nD) :
    (Pipeline.arrBufs (Ix := Unit) (Name := ℕ) (U := UR sig nD τ) (Lvl := ℕ) spec0 c (V m c) : sProp 𝕄)
      ⊢ (dats m 0 c).arrays (dats m 0 c).A := by
  unfold Pipeline.arrBufs Dat.arrays
  have two : ∀ Φ : Ref sig .tc → sProp 𝕄, bigSep ({main_v69, main_v70} : Finset (Ref sig .tc)) Φ = iprop(Φ main_v69 ∗ Φ main_v70) := fun Φ => by
    rw [BI.bigSep_insert (by decide), BI.bigSep_singleton]; rfl
  rw [arrRefs_eq, two, bigSep_W0]
  iintro ⟨Hz, Ho⟩
  ihave Hz := (pointsTo_share (PosShare.mem_left_op_right fullShare)).1 $$ Hz
  icases Hz with ⟨Hl, Hr⟩
  isplitl [Hl]
  · rw [(arr_whole0 0).set_eq_univ]; iexact Hl
  isplitl [Hr]
  · rw [(arr_whole0 1).set_eq_univ]; iexact Hr
  · rw [(arr_whole0 2).set_eq_univ]; iexact Ho

end Cert.Kernel.Decode

end
-- ==== Proof.RunBits.lean ====
/-
  The decoder's run. From any memory with zero counters, every weakly fair execution of @main runs the host lines,
  enters the region, pipelines the 64 tiles and returns; at the end each window's array stands in the proof data's
  relation to what the region found (an input unchanged; the result overwritten tile by tile by what the body left,
  or, where the mask forgets the output window, by anything), and every array that is no window's holds what the
  region found. The launch is the library's rule for one region whose input windows may share an array.
-/
import proofs.«102192_j20822001451042_2_alg».proof.Proof.DataBits
import Idealize.ShloMosaic.Lib.Pipeline.Frame

set_option maxRecDepth 16384

noncomputable section

namespace Cert.Kernel.Decode

open Cert.Kernel Cert.Kernel.Gen Cert.Kernel.Entry Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run ends with, under the mask `fgt` of forgotten windows. -/
def RunPost (fgt : Fin cfg0.W → Bool) (r : PUnit × MemSt nD τ sig (Elt F)) : Prop :=
  ∀ c : Dev nD,
    (∀ w, ((dats m 0 c).toRForget fgt).ArrAt w cfg0.N (r.2.mem ((cfg0.spec w).arr.view.loc (c.tc : Thread nD τ))))
    ∧ ∀ b ∈ Pipeline.restRefs sig cfg0.spec, r.2.mem ((c.tc : Thread nD τ).loc b) = V m c b

set_option backward.isDefEq.respectTransparency.types false in
set_option maxHeartbeats 4000000 in
theorem run_main (fgt : Fin cfg0.W → Bool)
    (hbody : ∀ c, BodyObligationLoose (dats m 0 c) (defs₀ (F := F)) Variants.none () Set.univ fgt) :
    θ_run defs (onTc (τ := τ) (main (F := F))) ⟨m, fun _ => 0, ρ⟩ (RunPost m fgt) := by
  classical
  exact Pipeline.RDat.θ_run_region_pf (fun q => (cfgs q).toPCfg (Val := Elt F)) (fun q => (cfgs q).toPCfg_adm)
    (fun p c => (dats m p c).toRForget fgt) () cellOf_inj (0 : Fin 1) winFacts₀0
    (Pipeline.OwnSemFacts.none spec0) (Pipeline.PreFacts.none _) emb₁ defs₀ Variants.none m ρ main
    (fun c => (hbody c).toRForget)
    block_pos0 arr_whole0 stage_whole0 (fun c t => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_dealt m c)
    (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (V m c))
    (hX := fun c => by
      iintro ⟨HU, -, -, -, -, -⟩; imodintro
      isplitr; · iempintro
      iexact HU)
    (hin := fun c => by
      show _ ⊢ (iprop(emp) : sProp 𝕄)
      iintro ⟨-, -, -⟩
      iempintro)
    (hout := fun c => by
      rw [Pipeline.ownSems0_none, scopedRest0_eq]
      show (iprop(emp) : sProp 𝕄) ⊢ _
      iintro -
      isplitr; · iempintro
      isplitr <;> iempintro)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w,
      Pipeline.rest_of_restP Pipeline.Prefetch.none spec0 (fun k => k.elim0) c (V m c) s (fun k => k.elim0) (h c).2.1 (h c).2.2⟩)

end Cert.Kernel.Decode

end
-- ==== Proof.KeptBits.lean ====
/-
  The argument arrays after the run. No window stages an argument and no host line writes one, so each ends at its
  launch contents, whatever is or is not said of the output window.
-/
import proofs.«102192_j20822001451042_2_alg».proof.Proof.RunBits

noncomputable section

namespace Cert.Kernel.Decode

open Cert.Kernel Cert.Kernel.Gen Cert.Kernel.Entry
open Idealize.ShloMosaic Idealize.ShloMosaic.TcCoe Idealize.SL.Sem

variable {F : FTy → Type} [FloatOps F]
variable (m : (ℓ : Loc nD τ sig) → Buf (Elt F) ℓ)

theorem args_kept (fgt : Fin cfg0.W → Bool) (r : PUnit × MemSt nD τ sig (Elt F)) (h : RunPost m fgt r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c)⟩

end Cert.Kernel.Decode

end
-- ==== Proof.ObligeFrameBits.lean ====
/-
  The body's obligation when nothing is said of the output tile. At every grid point the two input buffers arrive
  holding their blocks on the rows inside the array and anything past them, and leave as they came; the output
  buffer arrives at some contents and leaves at some contents. This is what a frame needs: that the body runs, not
  what it computes.
-/
import proofs.«102192_j20822001451042_2_alg».proof.Proof.DataBits

set_option maxRecDepth 16384

noncomputable section

namespace Cert.Kernel.Decode

open Cert.Kernel Cert.Kernel.Gen Cert.Kernel.Entry Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The mask that forgets the output window and keeps the two inputs. -/
def forgetOut : Fin cfg0.W → Bool := fun w => match w with
  | ⟨0, _⟩ => false
  | ⟨1, _⟩ => false
  | ⟨2, _⟩ => true

set_option maxHeartbeats 2000000 in
theorem obligation_frame (c : Dev nD) :
    BodyObligationLoose (dats m 0 c) (defs₀ (F := F)) Variants.none () Set.univ forgetOut := fun t => by
  rw [bigSep_W0, bigSep_W0]
  simp only [forgetOut]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [before_0 m c t d0, before_1 m c t d1]
  iapply (sound_tile (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (rowBlk m c t)) (win0_1.fill (grid0.coords t) d1 (colBlk m c t)) _)
  isplitl [H0]; · iexact H0
  isplitl [H1]; · iexact H1
  isplitl [H2]; · iexists X2; iexact H2
  iintro ⟨H0, H1, H2⟩
  isplitl [HΦ]; · iexact HΦ
  isplitl [Ho]; · iexact Ho
  have hr : win0_0.cut (grid0.coords t) ((dats m 0 c).after 0 t) = rowBlk m c t := by
    rw [after_0]; exact win0_0.cut_fill _ _ _
  have hc : win0_1.cut (grid0.coords t) ((dats m 0 c).after 1 t) = colBlk m c t := by
    rw [after_1]; exact win0_1.cut_fill _ _ _
  isplitl [H0]
  · iexists d0
    change _ ⊢ owns (c : Thread nD τ) (win0_0.stage (cfg0.slots t 0)) fullShare
      (win0_0.fill (grid0.coords t) d0 (win0_0.cut (grid0.coords t) ((dats m 0 c).after 0 t)))
    rw [hr]; try iexact H0
  isplitl [H1]
  · iexists d1
    change _ ⊢ owns (c : Thread nD τ) (win0_1.stage (cfg0.slots t 1)) fullShare
      (win0_1.fill (grid0.coords t) d1 (win0_1.cut (grid0.coords t) ((dats m 0 c).after 1 t)))
    rw [hc]; try iexact H1
  · iexists _; iexact H2

end Cert.Kernel.Decode

end
-- ==== Proof.TileIdeal.lean ====
/-
  One output tile of the decoder. The kernel body reads its two staged row blocks (1536 rows of 128 features each),
  multiplies the first by the transpose of the second on the matrix unit into a zero accumulator, and stores the
  1536 x 1536 product over the whole staged output tile. Stated for any float instance: the tile the body leaves is
  the product term of the two blocks it was handed, whatever they hold.
-/
import proofs.«102192_j20822001451042_2_alg».proof.Proof.Gen.KernelIdeal.Launch
import proofs.«102192_j20822001451042_2_alg».proof.Proof.Gen.KernelIdeal.Skeleton
import proofs.«102192_j20822001451042_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole of a staged row block, and the whole of a staged output tile: the body's three accesses. -/
abbrev rowsAll : Rect S1536x128 := Rect.unit (s := S1536x128) ![0, 0] S1536x128.size inb_S1536x128_S1536x128_0_0
abbrev tileAll : Rect S1536x1536 := Rect.unit (s := S1536x1536) ![0, 0] S1536x1536.size inb_S1536x1536_S1536x1536_0_0

/-- What the body's one store leaves in the staged output tile, from the two staged row blocks. -/
def tileOut (x0 x1 : Vec F S1536x128 .f32) : Vec F S1536x1536 .f32 :=
  View.canon [⟨tileAll, k0_pay1 (View.ld x0 rowsAll) (View.ld x1 rowsAll)⟩]

/-- The store is of the whole tile: every entry of the tile is written. -/
theorem tile_covered (p0 : Vec F S1536x1536 .f32) (y : S1536x1536.Idx) :
    ∃ pc ∈ ([⟨tileAll, p0⟩] : List (View.Piece (Elt F) S1536x1536 .f32)), y ∈ pc.1.set :=
  View.cover_of_tiled [⟨tileAll, p0⟩] S1536x1536.size (by rfl) y

set_option maxHeartbeats 1000000 in
/-- The body on three whole staging memrefs, the row blocks at `x0`, `x1` and the output tile at anything: it ends
    with the row blocks as they were and the tile at `tileOut x0 x1`. -/
theorem sound_tile (c : Dev nD) (E : Set ℕ) (i : grid0.Coords)
    (a0 : Memref sig .tc .vmem S1536x128 .f32) (h0 : a0.IsWhole) (a1 : Memref sig .tc .vmem S1536x128 .f32) (h1 : a1.IsWhole)
    (a2 : Memref sig .tc .vmem S1536x1536 .f32) (h2 : a2.IsWhole)
    (x0 x1 : Vec F S1536x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
              ∗ owns (c : Thread nD τ) a2 fullShare (tileOut x0 x1)) -∗ K ⟨⟩))
      ⊢ wp frame (wpE (defs₀ (F := F)) Variants.none c none) E (cc0__decode_kernel i a0 h0 a1 h1 a2 h2) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

end Cert.KernelIdeal.Tile

end
-- ==== Proof.EntryIdeal.lean ====
/-
  @main up to the decoder's region. The host lines before the region (the graph convolution, the batch normalisation
  and the rectifier) run first; the region is entered with every array at what those lines leave, and none of them
  writes an argument array.
-/
import proofs.«102192_j20822001451042_2_alg».proof.Proof.Gen.KernelIdeal.Launch
import Idealize.ShloMosaic.Lib.Pipeline.Frame
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- Core `c`'s arrays when the region is entered: the launch contents run through the host lines before it. -/
abbrev V (c : Dev nD) (b : Ref sig .tc) : Buf (Elt F) ((c : Thread nD τ).loc b) :=
  StableHlo.after (List.flatten [hostOps0, hostOps0_1]) (fun b => m (c, b)) b

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the host lines and then the region: the region is entered holding the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

set_option maxHeartbeats 4000000 in
/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 4000000 in
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Entry

end
-- ==== Proof.DataIdeal.lean ====
/-
  The decoder's proof data. The rectified features `z` (12000 rows of 128) are staged twice: window 0 brings the
  row block of grid row `i`, window 1 the row block of grid column `j` of the SAME array, and window 2 takes back
  the 1536 x 1536 tile of `z zᵀ` at (i, j). 12000 is not a multiple of 1536, so the last block on each axis
  overhangs the array: only its part inside the array is moved, and past it a staged buffer holds words nothing
  names. After the body each input buffer is described as its block filled out with the zero word, and the output
  buffer as the body's product of those two; the obligation speaks of the parts inside the array only.
-/
import proofs.«102192_j20822001451042_2_alg».proof.Proof.TileIdeal
import proofs.«102192_j20822001451042_2_alg».proof.Proof.EntryIdeal
import Idealize.ShloMosaic.Lib.Pipeline.Kit

set_option maxRecDepth 16384

noncomputable section

namespace Cert.KernelIdeal.Decode

open Cert.KernelIdeal Cert.KernelIdeal.Gen Cert.KernelIdeal.Entry Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The part inside the array of the row block that grid row `i` reads, and of the one grid column `j` reads. -/
def rowBlk (c : Dev nD) (t : Fin cfg0.N) : (win0_0.xblock (grid0.coords t)).Idx → Elt F .f32 :=
  (win0_0.blk t).view.read (Elt F) (V m c main_v69)
def colBlk (c : Dev nD) (t : Fin cfg0.N) : (win0_1.xblock (grid0.coords t)).Idx → Elt F .f32 :=
  (win0_1.blk t).view.read (Elt F) (V m c main_v69)

/-- The staged buffers after the body: each block filled out past the array's end with the zero word, and the
    product tile of those two. -/
def rowBuf (c : Dev nD) (t : Fin cfg0.N) : S1536x128.Idx → Elt F .f32 :=
  win0_0.fill (grid0.coords t) (fun _ => Scalar.ofBits .f32 0#32) (rowBlk m c t)
def colBuf (c : Dev nD) (t : Fin cfg0.N) : S1536x128.Idx → Elt F .f32 :=
  win0_1.fill (grid0.coords t) (fun _ => Scalar.ofBits .f32 0#32) (colBlk m c t)
def tileBuf (c : Dev nD) (t : Fin cfg0.N) : S1536x1536.Idx → Elt F .f32 :=
  tileOut (rowBuf m c t) (colBuf m c t)

/-- The proof data on core `c`: the arrays as the region finds them; the staged buffers after the body; no
    invariant; nothing owed; the shared input array held half by each of its two windows. -/
def dats (_ : Fin 1) (c : Dev nD) : Dat τ (Elt F) Unit ℕ (UR sig nD τ) ℕ cfg0 c where
  A w := V m c (Pipeline.arrRef spec0 w)
  after w t := match w with
    | ⟨0, _⟩ => rowBuf m c t
    | ⟨1, _⟩ => colBuf m c t
    | ⟨2, _⟩ => tileBuf m c t
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = rowBuf m c t := by dsimp only [dats]
theorem after_1 (c : Dev nD) (t : Fin cfg0.N) : (dats m 0 c).after 1 t = colBuf m c t := by dsimp only [dats]
theorem after_2 (c : Dev nD) (t : Fin cfg0.N) : (dats m 0 c).after 2 t = tileBuf m c t := by dsimp only [dats]

/-- An input buffer holds, whenever the body runs, its block on the part inside the array (fetched at this point,
    or at an earlier one with the same block index and left in place) and anything past it. -/
theorem before_0 (c : Dev nD) (t : Fin cfg0.N) (d) :
    (dats m 0 c).before (0 : Fin 3) t d = win0_0.fill (grid0.coords t) d (rowBlk m c t) := by
  rw [(dats m 0 c).before_in_eq_fetched (0 : Fin 3) rfl (fun _ => rfl)
    (fun t t' h => funext fun a => congrArg (fun k => Pipeline.Clip.of k (S1536x128.size a) (S12000x128.size a)) (congrFun h a))
    (fun t => by rw [after_0]; exact win0_0.cut_fill _ _ _) t d]
  rfl
theorem before_1 (c : Dev nD) (t : Fin cfg0.N) (d) :
    (dats m 0 c).before (1 : Fin 3) t d = win0_1.fill (grid0.coords t) d (colBlk m c t) := by
  rw [(dats m 0 c).before_in_eq_fetched (1 : Fin 3) rfl (fun _ => rfl)
    (fun t t' h => funext fun a => congrArg (fun k => Pipeline.Clip.of k (S1536x128.size a) (S12000x128.size a)) (congrFun h a))
    (fun t => by rw [after_1]; exact win0_1.cut_fill _ _ _) t d]
  rfl

/-- The buffers behind the windows' arrays are two: the rectified features and the result. -/
theorem arrRefs_eq : Finset.univ.image (Pipeline.arrRef spec0) = {main_v69, main_v70} := by decide

/-- The rectified features, held whole by the launch, are dealt half to each of the two windows that read them; the
    result goes whole to its window. -/
theorem arrays_dealt (c : Dev nD) :
    (Pipeline.arrBufs (Ix := Unit) (Name := ℕ) (U := UR sig nD τ) (Lvl := ℕ) spec0 c (V m c) : sProp 𝕄)
      ⊢ (dats m 0 c).arrays (dats m 0 c).A := by
  unfold Pipeline.arrBufs Dat.arrays
  have two : ∀ Φ : Ref sig .tc → sProp 𝕄, bigSep ({main_v69, main_v70} : Finset (Ref sig .tc)) Φ = iprop(Φ main_v69 ∗ Φ main_v70) := fun Φ => by
    rw [BI.bigSep_insert (by decide), BI.bigSep_singleton]; rfl
  rw [arrRefs_eq, two, bigSep_W0]
  iintro ⟨Hz, Ho⟩
  ihave Hz := (pointsTo_share (PosShare.mem_left_op_right fullShare)).1 $$ Hz
  icases Hz with ⟨Hl, Hr⟩
  isplitl [Hl]
  · rw [(arr_whole0 0).set_eq_univ]; iexact Hl
  isplitl [Hr]
  · rw [(arr_whole0 1).set_eq_univ]; iexact Hr
  · rw [(arr_whole0 2).set_eq_univ]; iexact Ho

end Cert.KernelIdeal.Decode

end
-- ==== Proof.ObligeFrameIdeal.lean ====
/-
  The body's obligation when nothing is said of the output tile. At every grid point the two input buffers arrive
  holding their blocks on the rows inside the array and anything past them, and leave as they came; the output
  buffer arrives at some contents and leaves at some contents. This is what a frame needs: that the body runs, not
  what it computes.
-/
import proofs.«102192_j20822001451042_2_alg».proof.Proof.DataIdeal

set_option maxRecDepth 16384

noncomputable section

namespace Cert.KernelIdeal.Decode

open Cert.KernelIdeal Cert.KernelIdeal.Gen Cert.KernelIdeal.Entry Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The mask that forgets the output window and keeps the two inputs. -/
def forgetOut : Fin cfg0.W → Bool := fun w => match w with
  | ⟨0, _⟩ => false
  | ⟨1, _⟩ => false
  | ⟨2, _⟩ => true

set_option maxHeartbeats 2000000 in
theorem obligation_frame (c : Dev nD) :
    BodyObligationLoose (dats m 0 c) (defs₀ (F := F)) Variants.none () Set.univ forgetOut := fun t => by
  rw [bigSep_W0, bigSep_W0]
  simp only [forgetOut]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [before_0 m c t d0, before_1 m c t d1]
  iapply (sound_tile (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (rowBlk m c t)) (win0_1.fill (grid0.coords t) d1 (colBlk m c t)) _)
  isplitl [H0]; · iexact H0
  isplitl [H1]; · iexact H1
  isplitl [H2]; · iexists X2; iexact H2
  iintro ⟨H0, H1, H2⟩
  isplitl [HΦ]; · iexact HΦ
  isplitl [Ho]; · iexact Ho
  have hr : win0_0.cut (grid0.coords t) ((dats m 0 c).after 0 t) = rowBlk m c t := by
    rw [after_0]; exact win0_0.cut_fill _ _ _
  have hc : win0_1.cut (grid0.coords t) ((dats m 0 c).after 1 t) = colBlk m c t := by
    rw [after_1]; exact win0_1.cut_fill _ _ _
  isplitl [H0]
  · iexists d0
    change _ ⊢ owns (c : Thread nD τ) (win0_0.stage (cfg0.slots t 0)) fullShare
      (win0_0.fill (grid0.coords t) d0 (win0_0.cut (grid0.coords t) ((dats m 0 c).after 0 t)))
    rw [hr]; try iexact H0
  isplitl [H1]
  · iexists d1
    change _ ⊢ owns (c : Thread nD τ) (win0_1.stage (cfg0.slots t 1)) fullShare
      (win0_1.fill (grid0.coords t) d1 (win0_1.cut (grid0.coords t) ((dats m 0 c).after 1 t)))
    rw [hc]; try iexact H1
  · iexists _; iexact H2

end Cert.KernelIdeal.Decode

end
-- ==== Proof.LibMatmulNT.lean ====
/-
  A matrix product against a transposed right operand, read at an entry.

  At the exact instance a `tpu.matmul` into the zero accumulator is, at each output index, the sum over the dot's
  contraction index of the products of the operands at the indices the dimension numbers name. When an M × K matrix
  meets an N × K matrix and both contract their SECOND axis (the product `a · wᵀ`), the operand indices at output
  (y, j) and contraction coordinate k are (y, k) and (j, k), and the contraction index is its one coordinate; so the
  entry is `Σₖ a[y, k] · w[j, k]` over `Fin K`. The four coordinate facts are hypotheses: for a concrete record each is
  one line (two by the record's own single-axis lemmas, two by unfolding the index function at a decided membership).
-/
import Idealize.ShloMosaic.PureOps.Ideal.Laws
import Idealize.ShloMosaic.Lib.ValueIdx

noncomputable section

namespace Cert.MaskedDense.Lib

open Idealize.ShloMosaic Idealize.ShloMosaic.ValueIdx

/-- Entry (y, j) of an M × K by N × K product contracted along both second axes and accumulated into zero is
    `Σₖ a (y, k) · w (j, k)`, `k` over `Fin K`: the contraction index re-read as its one coordinate (`hr`, `hs`: one
    contracted axis of extent K), the operand indices by their coordinates (`hl0`, `hl1`, `hr0`, `hr1`). Only the
    re-indexing of a finite sum is used, so it holds with infinite entries too. -/
theorem matmul_nt_zero_ix2_apply {M K N : Nat} {φ₁ φ₂ : FTy}
    (d : DotDims ⟨2, ![M, K]⟩ ⟨2, ![N, K]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (i 1).val)
    (hr1 : ∀ (i : (⟨2, ![M, N]⟩ : Shape).Idx) (q : d.contr.Idx), (d.rhsIdx i q 1).val = (q ⟨0, by omega⟩).val)
    (prec : Option ContractPrecision) (a : FVec Ideal ⟨2, ![M, K]⟩ φ₁) (w : FVec Ideal ⟨2, ![N, K]⟩ φ₂)
    (y : Fin M) (j : Fin N) :
    FloatOps.matmul d prec a w (constant ⟨2, ![M, N]⟩ .f32 0x00000000#32) (ix2 y j)
      = ∑ k : Fin K, a (ix2 y k) * w (ix2 j k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 j k := funext fun c => Fin.ext (by
    match c with
    | ⟨0, _⟩ => exact hr0 _ _
    | ⟨1, _⟩ => exact (hr1 _ _).trans hk)
  rw [el, er]

end Cert.MaskedDense.Lib

end
-- ==== Proof.TileValue.lean ====
/-
  One output tile at the exact instance. Entry (p, q) of the tile the body stores is the inner product of row p of
  the first staged block with row q of the second: the matrix unit's product of one block with the transpose of the
  other, into zero. So an entry depends only on those two rows, and the part of the tile inside the array does not
  depend on what the staged blocks hold past the array's end. This gives the body's obligation in its exact form:
  on the rows and columns inside the array the output buffer holds the product of the two blocks.
-/
import proofs.«102192_j20822001451042_2_alg».proof.Proof.DataIdeal
import proofs.«102192_j20822001451042_2_alg».proof.Proof.LibMatmulNT
import Idealize.ShloMosaic.PureOps.Ideal.Laws
import Idealize.ShloMosaic.Lib.ValueIdx
import Idealize.ShloMosaic.Lib.Pipeline.Value

set_option maxRecDepth 16384

noncomputable section

namespace Cert.KernelIdeal.Decode

open Cert.KernelIdeal Cert.KernelIdeal.Gen Cert.KernelIdeal.Entry Cert.KernelIdeal.Tile
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-- The tile product's dimension numbers: both operands contract their second axis. -/
abbrev tileDot : DotDims S1536x128 S1536x128 S1536x1536 := dot_S1536x128_S1536x128_S1536x1536_1_1_0_0_n_n

theorem tileDot_l0 (i : S1536x1536.Idx) (q : tileDot.contr.Idx) : (tileDot.lhsIdx i q 0).val = (i 0).val := by
  unfold DotDims.lhsIdx
  rw [dif_neg (show ¬(0 : Fin S1536x128.rank) ∈ tileDot.lhsBatch by decide), dif_pos (show (0 : Fin S1536x128.rank) ∈ tileDot.lhsNonContracting by decide)]
  rfl
theorem tileDot_l1 (i : S1536x1536.Idx) (q : tileDot.contr.Idx) : (tileDot.lhsIdx i q 1).val = (q ⟨0, by decide⟩).val :=
  tileDot.lhsIdx_val_of_single rfl i q
theorem tileDot_r0 (i : S1536x1536.Idx) (q : tileDot.contr.Idx) : (tileDot.rhsIdx i q 0).val = (i 1).val := by
  unfold DotDims.rhsIdx
  rw [dif_neg (show ¬(0 : Fin S1536x128.rank) ∈ tileDot.rhsBatch by decide), dif_pos (show (0 : Fin S1536x128.rank) ∈ tileDot.rhsNonContracting by decide)]
  rfl
theorem tileDot_r1 (i : S1536x1536.Idx) (q : tileDot.contr.Idx) : (tileDot.rhsIdx i q 1).val = (q ⟨0, by decide⟩).val :=
  tileDot.rhsIdx_val_of_single rfl i q

theorem offs_zero : (![0, 0] : Fin 2 → Nat) = fun _ => 0 := funext fun a => by fin_cases a <;> rfl

/-- Entry (p, q) of the stored tile: the inner product of row p of the first block with row q of the second. -/
theorem tileOut_apply (x0 x1 : Vec Ideal S1536x128 .f32) (p q : Fin 1536) :
    tileOut (F := Ideal) x0 x1 (ix2 p q) = ∑ k : Fin 128, x0 (ix2 p k) * x1 (ix2 q k) := by
  unfold tileOut
  rw [View.canon_unit_zero offs_zero]
  unfold k0_pay1
  simp only [View.ld_unit_zero (S := S1536x128) offs_zero, shapeCast_self]
  exact Cert.MaskedDense.Lib.matmul_nt_zero_ix2_apply tileDot rfl rfl tileDot_l0 tileDot_l1 tileDot_r0 tileDot_r1 none x0 x1 p q

/-- At every grid point the three windows cut alike: the output tile's rows are cut where the first block's rows
    are, its columns where the second block's rows are, and the feature axis is never cut. -/
theorem cuts_agree : ∀ t : Fin cfg0.N,
    win0_0.xsize (grid0.coords t) 0 = win0_2.xsize (grid0.coords t) 0 ∧ win0_0.xsize (grid0.coords t) 1 = 128
    ∧ win0_1.xsize (grid0.coords t) 0 = win0_2.xsize (grid0.coords t) 1 ∧ win0_1.xsize (grid0.coords t) 1 = 128 :=
  (by decide +kernel : ∀ t : Fin grid0.N, _)

/-- Inside the part a transfer moves, a filled-out buffer does not depend on the filler. -/
theorem fill_indep {α : Type} (w : Window sig grid0) (i : grid0.Coords) (d d' : w.block.Idx → α) (g : (w.xblock i).Idx → α)
    (j : w.block.Idx) (h : ∀ a, (j a).val < w.xsize i a) : w.fill i d g j = w.fill i d' g j := by
  have hm := (w.moved_iff i j).mpr h
  unfold Pipeline.Window.fill; rw [dif_pos hm, dif_pos hm]

variable (m : (ℓ : Loc nD τ sig) → Buf (Elt Ideal) ℓ)

/-- The part of the product tile inside the array is the same whatever fills the two blocks out past the array's
    end: its entries read only rows inside the array. -/
theorem cut_tile_indep (c : Dev nD) (t : Fin cfg0.N) (d0 d1 : S1536x128.Idx → Elt Ideal .f32) :
    win0_2.cut (grid0.coords t) (tileOut (F := Ideal) (win0_0.fill (grid0.coords t) d0 (rowBlk m c t)) (win0_1.fill (grid0.coords t) d1 (colBlk m c t)))
      = win0_2.cut (grid0.coords t) (tileBuf m c t) := by
  obtain ⟨h00, h01, h10, h11⟩ := cuts_agree t
  funext y
  have hy0 : (y 0).val < win0_2.xsize (grid0.coords t) 0 := (y 0).isLt
  have hy1 : (y 1).val < win0_2.xsize (grid0.coords t) 1 := (y 1).isLt
  have hp : (y 0).val < 1536 := lt_of_lt_of_le hy0 (win0_2.xsize_le _ 0)
  have hq : (y 1).val < 1536 := lt_of_lt_of_le hy1 (win0_2.xsize_le _ 1)
  show tileOut (F := Ideal) _ _ (win0_2.xinj (grid0.coords t) y) = tileBuf m c t (win0_2.xinj (grid0.coords t) y)
  have e : win0_2.xinj (grid0.coords t) y = ix2 (⟨(y 0).val, hp⟩ : Fin 1536) (⟨(y 1).val, hq⟩ : Fin 1536) :=
    funext fun a => by match a with | ⟨0, _⟩ => rfl | ⟨1, _⟩ => rfl
  rw [e]
  unfold tileBuf rowBuf colBuf
  rw [tileOut_apply, tileOut_apply]
  refine Finset.sum_congr rfl fun k _ => ?_
  have hrow : ∀ a : Fin win0_0.shape.rank,
      ((ix2 (⟨(y 0).val, hp⟩ : Fin 1536) k : win0_0.block.Idx) a).val < win0_0.xsize (grid0.coords t) a := fun a => by
    match a with
    | ⟨0, _⟩ => show (y 0).val < win0_0.xsize (grid0.coords t) 0; rw [h00]; exact hy0
    | ⟨1, _⟩ => show k.val < win0_0.xsize (grid0.coords t) 1; rw [h01]; exact k.isLt
  have hcol : ∀ a : Fin win0_1.shape.rank,
      ((ix2 (⟨(y 1).val, hq⟩ : Fin 1536) k : win0_1.block.Idx) a).val < win0_1.xsize (grid0.coords t) a := fun a => by
    match a with
    | ⟨0, _⟩ => show (y 1).val < win0_1.xsize (grid0.coords t) 0; rw [h10]; exact hy1
    | ⟨1, _⟩ => show k.val < win0_1.xsize (grid0.coords t) 1; rw [h11]; exact k.isLt
  exact congrArg₂ (· * ·) (fill_indep win0_0 (grid0.coords t) _ _ _ _ hrow) (fill_indep win0_1 (grid0.coords t) _ _ _ _ hcol)

set_option maxHeartbeats 2000000 in
/-- The body's obligation in its exact form: on the parts inside the array the two input buffers leave holding
    their blocks and the output buffer the product tile of those. -/
theorem obligation_exact (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_tile (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (rowBlk m c t)) (win0_1.fill (grid0.coords t) d1 (colBlk m c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hr : win0_0.cut (grid0.coords t) ((dats m 0 c).after 0 t) = rowBlk m c t := by
    rw [after_0]; exact win0_0.cut_fill _ _ _
  have hc : win0_1.cut (grid0.coords t) ((dats m 0 c).after 1 t) = colBlk m c t := by
    rw [after_1]; exact win0_1.cut_fill _ _ _
  have ht : win0_2.fill (grid0.coords t)
        (tileOut (F := Ideal) (win0_0.fill (grid0.coords t) d0 (rowBlk m c t)) (win0_1.fill (grid0.coords t) d1 (colBlk m c t)))
        (win0_2.cut (grid0.coords t) ((dats m 0 c).after 2 t))
      = tileOut (F := Ideal) (win0_0.fill (grid0.coords t) d0 (rowBlk m c t)) (win0_1.fill (grid0.coords t) d1 (colBlk m c t)) := by
    rw [after_2]; exact win0_2.fill_congr_cut _ (cut_tile_indep m c t d0 d1)
  isplitl [H0]
  · iexists d0
    change _ ⊢ owns (c : Thread nD τ) (win0_0.stage (cfg0.slots t 0)) fullShare
      (win0_0.fill (grid0.coords t) d0 (win0_0.cut (grid0.coords t) ((dats m 0 c).after 0 t)))
    rw [hr]; try iexact H0
  isplitl [H1]
  · iexists d1
    change _ ⊢ owns (c : Thread nD τ) (win0_1.stage (cfg0.slots t 1)) fullShare
      (win0_1.fill (grid0.coords t) d1 (win0_1.cut (grid0.coords t) ((dats m 0 c).after 1 t)))
    rw [hc]; try iexact H1
  · iexists (tileOut (F := Ideal) (win0_0.fill (grid0.coords t) d0 (rowBlk m c t)) (win0_1.fill (grid0.coords t) d1 (colBlk m c t)))
    change _ ⊢ owns (c : Thread nD τ) (win0_2.stage (cfg0.slots t 2)) fullShare
      (win0_2.fill (grid0.coords t) (tileOut (F := Ideal) (win0_0.fill (grid0.coords t) d0 (rowBlk m c t)) (win0_1.fill (grid0.coords t) d1 (colBlk m c t)))
        (win0_2.cut (grid0.coords t) ((dats m 0 c).after 2 t)))
    rw [ht]; try iexact H2

end Cert.KernelIdeal.Decode

end
-- ==== Proof.RunIdeal.lean ====
/-
  The decoder's run. From any memory with zero counters, every weakly fair execution of @main runs the host lines,
  enters the region, pipelines the 64 tiles and returns; at the end each window's array stands in the proof data's
  relation to what the region found (an input unchanged; the result overwritten tile by tile by what the body left,
  or, where the mask forgets the output window, by anything), and every array that is no window's holds what the
  region found. The launch is the library's rule for one region whose input windows may share an array.
-/
import proofs.«102192_j20822001451042_2_alg».proof.Proof.DataIdeal
import Idealize.ShloMosaic.Lib.Pipeline.Frame

set_option maxRecDepth 16384

noncomputable section

namespace Cert.KernelIdeal.Decode

open Cert.KernelIdeal Cert.KernelIdeal.Gen Cert.KernelIdeal.Entry Cert.KernelIdeal.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run ends with, under the mask `fgt` of forgotten windows. -/
def RunPost (fgt : Fin cfg0.W → Bool) (r : PUnit × MemSt nD τ sig (Elt F)) : Prop :=
  ∀ c : Dev nD,
    (∀ w, ((dats m 0 c).toRForget fgt).ArrAt w cfg0.N (r.2.mem ((cfg0.spec w).arr.view.loc (c.tc : Thread nD τ))))
    ∧ ∀ b ∈ Pipeline.restRefs sig cfg0.spec, r.2.mem ((c.tc : Thread nD τ).loc b) = V m c b

set_option backward.isDefEq.respectTransparency.types false in
set_option maxHeartbeats 4000000 in
theorem run_main (fgt : Fin cfg0.W → Bool)
    (hbody : ∀ c, BodyObligationLoose (dats m 0 c) (defs₀ (F := F)) Variants.none () Set.univ fgt) :
    θ_run defs (onTc (τ := τ) (main (F := F))) ⟨m, fun _ => 0, ρ⟩ (RunPost m fgt) := by
  classical
  exact Pipeline.RDat.θ_run_region_pf (fun q => (cfgs q).toPCfg (Val := Elt F)) (fun q => (cfgs q).toPCfg_adm)
    (fun p c => (dats m p c).toRForget fgt) () cellOf_inj (0 : Fin 1) winFacts₀0
    (Pipeline.OwnSemFacts.none spec0) (Pipeline.PreFacts.none _) emb₁ defs₀ Variants.none m ρ main
    (fun c => (hbody c).toRForget)
    block_pos0 arr_whole0 stage_whole0 (fun c t => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_dealt m c)
    (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (V m c))
    (hX := fun c => by
      iintro ⟨HU, -, -, -, -, -⟩; imodintro
      isplitr; · iempintro
      iexact HU)
    (hin := fun c => by
      show _ ⊢ (iprop(emp) : sProp 𝕄)
      iintro ⟨-, -, -⟩
      iempintro)
    (hout := fun c => by
      rw [Pipeline.ownSems0_none, scopedRest0_eq]
      show (iprop(emp) : sProp 𝕄) ⊢ _
      iintro -
      isplitr; · iempintro
      isplitr <;> iempintro)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w,
      Pipeline.rest_of_restP Pipeline.Prefetch.none spec0 (fun k => k.elim0) c (V m c) s (fun k => k.elim0) (h c).2.1 (h c).2.2⟩)

end Cert.KernelIdeal.Decode

end
-- ==== Proof.KeptIdeal.lean ====
/-
  The argument arrays after the run. No window stages an argument and no host line writes one, so each ends at its
  launch contents, whatever is or is not said of the output window.
-/
import proofs.«102192_j20822001451042_2_alg».proof.Proof.RunIdeal

noncomputable section

namespace Cert.KernelIdeal.Decode

open Cert.KernelIdeal Cert.KernelIdeal.Gen Cert.KernelIdeal.Entry
open Idealize.ShloMosaic Idealize.ShloMosaic.TcCoe Idealize.SL.Sem

variable {F : FTy → Type} [FloatOps F]
variable (m : (ℓ : Loc nD τ sig) → Buf (Elt F) ℓ)

theorem args_kept (fgt : Fin cfg0.W → Bool) (r : PUnit × MemSt nD τ sig (Elt F)) (h : RunPost m fgt r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c)⟩

end Cert.KernelIdeal.Decode

end
-- ==== Proof.InnerProduct.lean ====
/-
  The decoder's specification. For a matrix `z` of 12000 rows and 128 columns of extended reals, the inner-product
  decoder's result is the 12000 x 12000 matrix of the rows' inner products: entry (i, j) is the sum over the 128
  features k of z(i, k) · z(j, k). No finiteness is asked: the entries may be infinite.
-/
import Idealize.ShloMosaic.PureOps.Ideal
import Idealize.ShloMosaic.Lib.ValueIdx

noncomputable section

namespace Cert.InnerProduct

open Idealize.ShloMosaic Idealize.ShloMosaic.ValueIdx

/-- The rows' shape and the result's. -/
abbrev Rows : Shape := ⟨2, ![12000, 128]⟩
abbrev Gramian : Shape := ⟨2, ![12000, 12000]⟩

/-- Entry (i, j) of `z zᵀ`. -/
def gram (z : Rows.Idx → EReal) : Gramian.Idx → EReal :=
  fun i => ∑ k : Fin 128, z (ix2 (i 0) k) * z (ix2 (i 1) k)

theorem gram_apply (z : Rows.Idx → EReal) (i : Gramian.Idx) :
    gram z i = ∑ k : Fin 128, z (ix2 (i 0) k) * z (ix2 (i 1) k) := rfl

end Cert.InnerProduct

end
-- ==== Proof.WholeResult.lean ====
/-
  The whole result at the exact instance. Grid point t = 8 i + j writes back the part inside the array of the tile at
  block row i and block column j; that part is, entry by entry, the inner products of rows 1536 i + p and 1536 j + q
  of the rectified features `z` as the region found them. The 64 tiles' parts inside the array cover the
  12000 x 12000 result (the last block on each axis has 1248 rows inside). So the result array ends holding the
  inner products of all pairs of rows of `z`.
-/
import proofs.«102192_j20822001451042_2_alg».proof.Proof.TileValue
import proofs.«102192_j20822001451042_2_alg».proof.Proof.KeptIdeal
import proofs.«102192_j20822001451042_2_alg».proof.Proof.InnerProduct
import Idealize.ShloMosaic.Lib.Pipeline.Value

set_option maxRecDepth 16384

noncomputable section

namespace Cert.KernelIdeal.Decode

open Cert.KernelIdeal Cert.KernelIdeal.Gen Cert.KernelIdeal.Entry Cert.KernelIdeal.Tile
open Idealize.ShloMosaic Idealize.ShloMosaic.TcCoe Idealize.ShloMosaic.ValueIdx
open Idealize.SL.Sem
open Idealize.ShloMosaic.Pipeline (Dat RDat Cfg Window)

variable (m : (ℓ : Loc nD τ sig) → Buf (Elt Ideal) ℓ) (ρ : Dev nD → PrngReg)

/-- Over the grid: the output tile's block row is the first window's block index and its block column the second's;
    the input windows' feature axis is block 0. -/
theorem indices_agree : ∀ t : Fin cfg0.N,
    win0_0.index t 0 = win0_2.index t 0 ∧ win0_0.index t 1 = 0 ∧ win0_1.index t 0 = win0_2.index t 1 ∧ win0_1.index t 1 = 0 :=
  (by decide +kernel : ∀ t : Fin grid0.N, _)

/-- An entry of a row block is the entry of `z` at the block's offset. -/
theorem rowBlk_apply (c : Dev nD) (t : Fin cfg0.N) (x : (win0_0.xblock (grid0.coords t)).Idx) (j : S12000x128.Idx)
    (hj0 : (j 0).val = win0_0.index t 0 * 1536 + (x 0).val) (hj1 : (j 1).val = (x 1).val) :
    rowBlk m c t x = (V m c main_v69 : S12000x128.Idx → Elt Ideal .f32) j := by
  have hi := (indices_agree t).2.1
  unfold rowBlk
  rw [View.read_apply]
  show V m c main_v69 _ = V m c main_v69 _
  congr 1
  funext a
  apply Fin.ext
  match a with
  | ⟨0, _⟩ => show win0_0.index t 0 * 1536 + 1 * (x 0).val = (j 0).val; rw [hj0]; omega
  | ⟨1, _⟩ => show win0_0.index t 1 * 128 + 1 * (x 1).val = (j 1).val; rw [hi, hj1]; omega
theorem colBlk_apply (c : Dev nD) (t : Fin cfg0.N) (x : (win0_1.xblock (grid0.coords t)).Idx) (j : S12000x128.Idx)
    (hj0 : (j 0).val = win0_1.index t 0 * 1536 + (x 0).val) (hj1 : (j 1).val = (x 1).val) :
    colBlk m c t x = (V m c main_v69 : S12000x128.Idx → Elt Ideal .f32) j := by
  have hi := (indices_agree t).2.2.2
  unfold colBlk
  rw [View.read_apply]
  show V m c main_v69 _ = V m c main_v69 _
  congr 1
  funext a
  apply Fin.ext
  match a with
  | ⟨0, _⟩ => show win0_1.index t 0 * 1536 + 1 * (x 0).val = (j 0).val; rw [hj0]; omega
  | ⟨1, _⟩ => show win0_1.index t 1 * 128 + 1 * (x 1).val = (j 1).val; rw [hi, hj1]; omega

/-- Inside the array a staged block's entry is `z`'s. -/
theorem rowBuf_apply (c : Dev nD) (t : Fin cfg0.N) (p : Fin 1536) (k : Fin 128) (hp : p.val < win0_0.xsize (grid0.coords t) 0)
    (j : S12000x128.Idx) (hj0 : (j 0).val = win0_0.index t 0 * 1536 + p.val) (hj1 : (j 1).val = k.val) :
    rowBuf m c t (ix2 p k) = (V m c main_v69 : S12000x128.Idx → Elt Ideal .f32) j := by
  have hm : win0_0.moved (grid0.coords t) (ix2 p k) = true := (win0_0.moved_iff _ _).mpr fun a => by
    match a with
    | ⟨0, _⟩ => exact hp
    | ⟨1, _⟩ => show k.val < win0_0.xsize (grid0.coords t) 1; rw [(cuts_agree t).2.1]; exact k.isLt
  unfold rowBuf Pipeline.Window.fill
  rw [dif_pos hm]
  exact rowBlk_apply m c t _ j hj0 hj1
theorem colBuf_apply (c : Dev nD) (t : Fin cfg0.N) (q : Fin 1536) (k : Fin 128) (hq : q.val < win0_1.xsize (grid0.coords t) 0)
    (j : S12000x128.Idx) (hj0 : (j 0).val = win0_1.index t 0 * 1536 + q.val) (hj1 : (j 1).val = k.val) :
    colBuf m c t (ix2 q k) = (V m c main_v69 : S12000x128.Idx → Elt Ideal .f32) j := by
  have hm : win0_1.moved (grid0.coords t) (ix2 q k) = true := (win0_1.moved_iff _ _).mpr fun a => by
    match a with
    | ⟨0, _⟩ => exact hq
    | ⟨1, _⟩ => show k.val < win0_1.xsize (grid0.coords t) 1; rw [(cuts_agree t).2.2.2]; exact k.isLt
  unfold colBuf Pipeline.Window.fill
  rw [dif_pos hm]
  exact colBlk_apply m c t _ j hj0 hj1

/-- The result: all pairs of rows of `z`, inner products. -/
def result (c : Dev nD) : Buf (Elt Ideal) ((c : Thread nD τ).loc main_v70) :=
  Cert.InnerProduct.gram (V m c main_v69)

/-- What a point writes back is its block of `result`. -/
theorem flushed_eq (c : Dev nD) (t : Fin cfg0.N) (hf : (cfg0.win 2).flush t = true) :
    (dats m 0 c).flushed 2 t = ((cfg0.win 2).blk t).view.read (Elt Ideal) (result m c) := by
  obtain ⟨h00, h01, h10, h11⟩ := cuts_agree t
  obtain ⟨i00, i01, i10, i11⟩ := indices_agree t
  show win0_2.cut (grid0.coords t) ((dats m 0 c).after 2 t) = _
  rw [after_2]
  funext y
  have hy0 : (y 0).val < win0_2.xsize (grid0.coords t) 0 := (y 0).isLt
  have hy1 : (y 1).val < win0_2.xsize (grid0.coords t) 1 := (y 1).isLt
  have hp : (y 0).val < 1536 := lt_of_lt_of_le hy0 (win0_2.xsize_le _ 0)
  have hq : (y 1).val < 1536 := lt_of_lt_of_le hy1 (win0_2.xsize_le _ 1)
  show tileBuf m c t (win0_2.xinj (grid0.coords t) y) = _
  have e : win0_2.xinj (grid0.coords t) y = ix2 (⟨(y 0).val, hp⟩ : Fin 1536) (⟨(y 1).val, hq⟩ : Fin 1536) :=
    funext fun a => by match a with | ⟨0, _⟩ => rfl | ⟨1, _⟩ => rfl
  rw [e]
  unfold tileBuf
  rw [tileOut_apply, View.read_apply]
  have hI0 : ((((cfg0.win 2).blk t).view.emb y) 0).val = win0_2.index t 0 * 1536 + (y 0).val := by
    show win0_2.index t 0 * 1536 + 1 * (y 0).val = _; omega
  have hI1 : ((((cfg0.win 2).blk t).view.emb y) 1).val = win0_2.index t 1 * 1536 + (y 1).val := by
    show win0_2.index t 1 * 1536 + 1 * (y 1).val = _; omega
  show _ = Cert.InnerProduct.gram (V m c main_v69) (((cfg0.win 2).blk t).view.emb y)
  rw [Cert.InnerProduct.gram_apply]
  refine Finset.sum_congr rfl fun k _ => ?_
  rw [rowBuf_apply m c t ⟨(y 0).val, hp⟩ k (by rw [h00]; exact hy0) (ix2 ((((cfg0.win 2).blk t).view.emb y) 0) k)
      (by show ((((cfg0.win 2).blk t).view.emb y) 0).val = _; rw [hI0, i00]) rfl,
    colBuf_apply m c t ⟨(y 1).val, hq⟩ k (by rw [h10]; exact hy1) (ix2 ((((cfg0.win 2).blk t).view.emb y) 1) k)
      (by show ((((cfg0.win 2).blk t).view.emb y) 1).val = _; rw [hI1, i10]) rfl]

/-- Over the grid: point t is block row t / 8 and block column t % 8, and the last block on an axis has 1248 rows
    inside the array. -/
theorem tiles_placed : ∀ t : Fin cfg0.N,
    win0_2.index t 0 = t.val / 8 ∧ win0_2.index t 1 = t.val % 8
    ∧ win0_2.xsize (grid0.coords t) 0 = (if t.val / 8 = 7 then 1248 else 1536)
    ∧ win0_2.xsize (grid0.coords t) 1 = (if t.val % 8 = 7 then 1248 else 1536) :=
  (by decide +kernel : ∀ t : Fin grid0.N, _)

/-- Every entry of the result lies in the tile of its block row and block column. -/
theorem tiles_cover (i : S12000x12000.Idx) :
    ∃ t : Fin cfg0.N, (cfg0.win 2).flush t = true ∧ i ∈ ((cfg0.win 2).blk t).view.set := by
  have h0 : (i 0).val < 12000 := (i 0).isLt
  have h1 : (i 1).val < 12000 := (i 1).isLt
  have hN : cfg0.N = 64 := N_0
  have hlt : (i 0).val / 1536 * 8 + (i 1).val / 1536 < cfg0.N := by rw [hN]; omega
  obtain ⟨g0, g1, x0, x1⟩ := tiles_placed ⟨(i 0).val / 1536 * 8 + (i 1).val / 1536, hlt⟩
  refine ⟨⟨(i 0).val / 1536 * 8 + (i 1).val / 1536, hlt⟩, flush0_2 _, ?_⟩
  show i ∈ ((View.whole main_v70).slice (win0_2.rect ⟨(i 0).val / 1536 * 8 + (i 1).val / 1536, hlt⟩)).set
  rw [View.set_slice_whole, Rect.mem_set_unit]
  intro a
  match a with
  | ⟨0, _⟩ =>
    show win0_2.index ⟨(i 0).val / 1536 * 8 + (i 1).val / 1536, hlt⟩ 0 * 1536 ≤ (i 0 : Nat)
      ∧ (i 0 : Nat) < win0_2.index ⟨(i 0).val / 1536 * 8 + (i 1).val / 1536, hlt⟩ 0 * 1536
          + win0_2.xsize (grid0.coords ⟨(i 0).val / 1536 * 8 + (i 1).val / 1536, hlt⟩) 0
    rw [g0, x0]
    show ((i 0).val / 1536 * 8 + (i 1).val / 1536) / 8 * 1536 ≤ (i 0 : Nat)
      ∧ (i 0 : Nat) < ((i 0).val / 1536 * 8 + (i 1).val / 1536) / 8 * 1536 + (if ((i 0).val / 1536 * 8 + (i 1).val / 1536) / 8 = 7 then 1248 else 1536)
    split_ifs <;> omega
  | ⟨1, _⟩ =>
    show win0_2.index ⟨(i 0).val / 1536 * 8 + (i 1).val / 1536, hlt⟩ 1 * 1536 ≤ (i 1 : Nat)
      ∧ (i 1 : Nat) < win0_2.index ⟨(i 0).val / 1536 * 8 + (i 1).val / 1536, hlt⟩ 1 * 1536
          + win0_2.xsize (grid0.coords ⟨(i 0).val / 1536 * 8 + (i 1).val / 1536, hlt⟩) 1
    rw [g1, x1]
    show ((i 0).val / 1536 * 8 + (i 1).val / 1536) % 8 * 1536 ≤ (i 1 : Nat)
      ∧ (i 1 : Nat) < ((i 0).val / 1536 * 8 + (i 1).val / 1536) % 8 * 1536 + (if ((i 0).val / 1536 * 8 + (i 1).val / 1536) % 8 = 7 then 1248 else 1536)
    split_ifs <;> omega

/-- The result array after the run. -/
theorem final_result (c : Dev nD) : (dats m 0 c).arrAt 2 cfg0.N = result m c :=
  (dats m 0 c).arrAt_eq_of_cover 2 (result m c) (flushed_eq m c) tiles_cover

/-- The idealized kernel's run, read: the result at the rows' inner products, the arguments unchanged. -/
theorem kernel_run : θ_run defs (onTc (τ := τ) (main (F := Ideal))) ⟨m, fun _ => 0, ρ⟩ fun r => ∀ c : Dev nD,
      r.2.mem ((c.tc : Thread nD τ).loc main_v70) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨(((dats m 0 c).toRForget_arrAt_iff (fgt := fun _ => false) (w := 2) rfl _ _).mp ((h c).1 2)).trans (final_result m c),
        args_kept m (fun _ => false) r h c⟩)
    (run_main m ρ (fun _ => false) (obligation_exact m))

end Cert.KernelIdeal.Decode

end
-- ==== Proof.ReferenceSide.lean ====
/-
  The reference at the exact instance. Its last two lines transpose the rectified features `z` and contract `z`
  with the transpose along the feature axis: entry (i, j) is the sum over k of z(i, k) · zᵀ(k, j), and zᵀ(k, j) is
  z(j, k). So the reference's result is the rows' inner products of its own `z`, the same specification the kernel's
  tiles assemble.
-/
import proofs.«102192_j20822001451042_2_alg».proof.Proof.Gen.ReferenceIdeal.Run
import proofs.«102192_j20822001451042_2_alg».proof.Proof.Gen.ReferenceIdeal.Read
import proofs.«102192_j20822001451042_2_alg».proof.Proof.InnerProduct

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The reference's product of `z` with its transpose is `z`'s rows' inner products. -/
theorem product_is_gram (x0 : (⟨S12000x256, .f32⟩ : BufTy).Contents (Elt Ideal)) (x1 : (⟨S2x384000, .i32⟩ : BufTy).Contents (Elt Ideal))
    (x2 : (⟨S256x128, .f32⟩ : BufTy).Contents (Elt Ideal)) (x3 x4 x5 : (⟨S128, .f32⟩ : BufTy).Contents (Elt Ideal)) :
    val_main_v71 (F := Ideal) x0 x1 x2 x3 x4 x5 = Cert.InnerProduct.gram (val_main_v69 (F := Ideal) x0 x1 x2 x3 x4 x5) := by
  funext i
  rw [val_main_v71_apply, Cert.InnerProduct.gram_apply]
  refine Finset.sum_congr rfl fun k _ => ?_
  rw [val_main_v70_apply]
  have el : lidx_main_v71 i k = ix2 (i 0) k :=
    funext fun a => Fin.ext (by match a with | ⟨0, _⟩ => rfl | ⟨1, _⟩ => rfl)
  have er : idx_main_v70 (ridx_main_v71 i k) = ix2 (i 1) k :=
    funext fun a => Fin.ext (by match a with | ⟨0, _⟩ => rfl | ⟨1, _⟩ => rfl)
  rw [el, er]
  rfl

/-- The reference's run, read: its result at the rows' inner products of its rectified features, its arguments
    unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71)
        = Cert.InnerProduct.gram (val_main_v69 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v71_eq m c).trans (product_is_gram _ _ _ _ _ _)), (h c).2⟩)
    (Cert.ReferenceIdeal.Value.run (F := Ideal) m ρ)

end Cert.ReferenceIdeal.RefValue

end
-- ==== Proof.NormRelu.lean ====
/-
  The stage after the graph convolution, as one function. From the convolution's output `h` (12000 nodes, 128
  features) and the scale and shift vectors: the mean of each feature over the nodes, the mean of the squared
  deviations, the deviations times the inverse square root of that variance plus 1e-5, times the scale, plus the
  shift, and the rectifier. Stated for any float instance, with the host program's own operations.
-/
import proofs.«102192_j20822001451042_2_alg».proof.Proof.Gen.KernelIdeal

noncomputable section

namespace Cert.KernelIdeal.Entry

open Cert.KernelIdeal Cert.KernelIdeal.Facts₀
open Idealize.ShloMosaic

variable {F : FTy → Type} [FloatOps F]

/-- Batch normalisation over the nodes (biased variance, epsilon 1e-5 as its f32 word), scale, shift, rectifier. -/
def normRelu (h : (⟨S12000x128, .f32⟩ : BufTy).Contents (Elt F)) (g b : (⟨S128, .f32⟩ : BufTy).Contents (Elt F)) :
    (⟨S12000x128, .f32⟩ : BufTy).Contents (Elt F) :=
  let rows : (⟨S128, .f32⟩ : BufTy).Contents (Elt F) → (⟨S12000x128, .f32⟩ : BufTy).Contents (Elt F) := fun v =>
    broadcastInDim S12000x128 ![0, 1] bcast_S1x128_S12000x128_0_1 (broadcastInDim S1x128 ![1] bcast_S128_S1x128_1 v)
  let count : (⟨S128, .f32⟩ : BufTy).Contents (Elt F) := broadcastInDim S128 ![] bcast_S_S128 (constant S_ .f32 0x463B8000#32)
  let mean : (⟨S128, .f32⟩ : BufTy).Contents (Elt F) :=
    Host.divf (Host.reduceAdd h (constant S_ .f32 0x00000000#32) reducesTo_S12000x128_S128_d0 h_S_) count
  let dev : (⟨S12000x128, .f32⟩ : BufTy).Contents (Elt F) := subf h (rows mean)
  let var : (⟨S128, .f32⟩ : BufTy).Contents (Elt F) :=
    Host.divf (Host.reduceAdd (mulf dev dev) (constant S_ .f32 0x00000000#32) reducesTo_S12000x128_S128_d0 h_S_) count
  let scale : (⟨S128, .f32⟩ : BufTy).Contents (Elt F) :=
    Host.rsqrt (addf var (broadcastInDim S128 ![] bcast_S_S128 (constant S_ .f32 0x3727C5AC#32)))
  maximumf (addf (mulf (mulf (subf h (rows mean)) (rows scale)) (rows g)) (rows b))
    (broadcastInDim S12000x128 ![] bcast_S_S12000x128 (constant S_ .f32 0x00000000#32))

end Cert.KernelIdeal.Entry

end
-- ==== Proof.SameFeatures.lean ====
/-
  The two programs compute the rectified features by the same host lines. The comparison is made in two stages so
  that the convolution's output, which the normalisation reads six times, is compared once: first the graph
  convolution with self loops and symmetric normalisation (both programs' lines compose one term of the arguments),
  then the batch normalisation, scale, shift and rectifier as one function of that output.
-/
import proofs.«102192_j20822001451042_2_alg».proof.Proof.EntryIdeal
import proofs.«102192_j20822001451042_2_alg».proof.Proof.NormRelu
import proofs.«102192_j20822001451042_2_alg».proof.Proof.Gen.ReferenceIdeal.Read
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

set_option maxHeartbeats 40000000 in
/-- The convolution's output when the kernel's region is entered is the reference's term for it. -/
theorem conv_eq :
    (V m c main_v43 : S12000x128.Idx → EReal)
      = Cert.ReferenceIdeal.Read.val_main_v43 (F := Ideal) (m ((c.tc : Thread nD τ).loc main_arg0)) (m ((c.tc : Thread nD τ).loc main_arg1))
          (m ((c.tc : Thread nD τ).loc main_arg2)) (m ((c.tc : Thread nD τ).loc main_arg3)) := by
  dsimp only [V]
  simp only [hostOps0, hostOps0_1, List.flatten_cons, List.flatten_nil, List.append_nil, List.cons_append, List.nil_append]
  after_results_simp
  rfl

/-- The host lines after the convolution: the normalisation's thirty and the rectifier's three. -/
abbrev stageOps : List (HloOp τ sig (Elt Ideal)) := List.drop 53 (List.flatten [hostOps0, hostOps0_1])

/-- The region-entry contents, cut after the convolution. -/
theorem V_cut (b : Ref sig .tc) :
    V m c b = StableHlo.after stageOps (StableHlo.after (List.take 53 (List.flatten [hostOps0, hostOps0_1])) (fun b => m (c, b))) b := by
  show StableHlo.after (List.flatten [hostOps0, hostOps0_1]) (fun b => m (c, b)) b = _
  rw [← StableHlo.after_append, List.take_append_drop]

set_option maxHeartbeats 40000000 in
/-- From any contents, the stage's lines leave the rectified features at `normRelu` of the convolution's output and
    the scale and shift arguments. -/
theorem stage_result (W : Valuation τ sig (Elt Ideal)) :
    (StableHlo.after stageOps W main_v69 : S12000x128.Idx → EReal) = normRelu (F := Ideal) (W main_v43) (W main_arg4) (W main_arg5) := by
  unfold stageOps
  simp only [hostOps0, hostOps0_1, List.flatten_cons, List.flatten_nil, List.append_nil, List.cons_append, List.nil_append,
    List.drop_succ_cons, List.drop_zero]
  after_results_simp
  rfl

set_option maxHeartbeats 4000000 in
/-- and write neither the convolution's output nor an argument. -/
theorem stage_keeps (W : Valuation τ sig (Elt Ideal)) :
    StableHlo.after stageOps W main_v43 = W main_v43 ∧ StableHlo.after stageOps W main_arg4 = W main_arg4
      ∧ StableHlo.after stageOps W main_arg5 = W main_arg5 := by
  refine ⟨?_, ?_, ?_⟩ <;>
  · refine StableHlo.after_of_forall_not_mem _ _ (List.forall_iff_forall_mem.mp ?_)
    unfold stageOps
    simp only [hostOps0, hostOps0_1, List.flatten_cons, List.flatten_nil, List.append_nil, List.cons_append, List.nil_append,
      List.drop_succ_cons, List.drop_zero,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The kernel's rectified features are `normRelu` of its convolution output. -/
theorem features_stage :
    (V m c main_v69 : S12000x128.Idx → EReal)
      = normRelu (F := Ideal) (V m c main_v43) (m ((c.tc : Thread nD τ).loc main_arg4)) (m ((c.tc : Thread nD τ).loc main_arg5)) := by
  rw [← V_main_arg4 m c, ← V_main_arg5 m c, V_cut m c main_v69, V_cut m c main_v43, V_cut m c main_arg4, V_cut m c main_arg5]
  generalize StableHlo.after (List.take 53 (List.flatten [hostOps0, hostOps0_1])) (fun b => m (c, b)) = W
  obtain ⟨k43, k4, k5⟩ := stage_keeps W
  rw [k43, k4, k5]
  exact stage_result W

/-- The reference's rectified features are the same function of its convolution output. -/
theorem reference_stage (x0 : (⟨Cert.ReferenceIdeal.S12000x256, .f32⟩ : BufTy).Contents (Elt Ideal)) (x1 : (⟨Cert.ReferenceIdeal.S2x384000, .i32⟩ : BufTy).Contents (Elt Ideal))
    (x2 : (⟨Cert.ReferenceIdeal.S256x128, .f32⟩ : BufTy).Contents (Elt Ideal)) (x3 x4 x5 : (⟨Cert.ReferenceIdeal.S128, .f32⟩ : BufTy).Contents (Elt Ideal)) :
    Cert.ReferenceIdeal.Read.val_main_v69 (F := Ideal) x0 x1 x2 x3 x4 x5
      = normRelu (F := Ideal) (Cert.ReferenceIdeal.Read.val_main_v43 (F := Ideal) x0 x1 x2 x3) x4 x5 := rfl

/-- So the kernel's rectified features are the reference's term of the same arguments. -/
theorem features_eq :
    (V m c main_v69 : S12000x128.Idx → EReal)
      = Cert.ReferenceIdeal.Read.val_main_v69 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  rw [features_stage, conv_eq]
  exact (reference_stage _ _ _ _ _ _).symm

end Cert.KernelIdeal.Entry

end
-- ==== Proof.lean ====
/-
  A graph auto-encoder's forward pass: a graph convolution with self loops and symmetric normalisation, a batch
  normalisation over the nodes, a rectifier, and an inner-product decoder `z zᵀ` over the 12000 nodes' 128 features.
  The kernel program runs everything up to the rectified features `z` as host lines and the decoder as one
  pipelined region over an 8 x 8 grid of 1536 x 1536 tiles, both input windows reading `z`; the reference runs the
  same host lines, transposes `z` and contracts. At the exact instance both results are the matrix of inner
  products of the rows of `z`: entry (i, j) is the sum over k of z(i, k) · z(j, k). Only the re-indexing of a finite
  sum joins the two sides, so no finiteness of the inputs is used.

  The frames: each program runs to the end without a fault and leaves its argument arrays as they were. For the
  word-level kernel nothing is said of what the tiles hold (the output window is forgotten); for the idealized kernel
  the frame is read off the run that names its result; the reference's is its run with the result dropped. The
  idealization rewrote no operation, so there is nothing to preserve.
-/
import proofs.«102192_j20822001451042_2_alg».proof.Defs
import proofs.«102192_j20822001451042_2_alg».proof.Proof.Gen.Kernel
import proofs.«102192_j20822001451042_2_alg».proof.Proof.Gen.KernelIdeal
import proofs.«102192_j20822001451042_2_alg».proof.Proof.Gen.ReferenceIdeal
import proofs.«102192_j20822001451042_2_alg».proof.Proof.Gen.ReferenceIdeal.Run
import proofs.«102192_j20822001451042_2_alg».proof.Proof.Gen.ReferenceIdeal.Read
import proofs.«102192_j20822001451042_2_alg».proof.Proof.Gen.Pre_finite_inputs
import proofs.«102192_j20822001451042_2_alg».proof.Proof.KeptBits
import proofs.«102192_j20822001451042_2_alg».proof.Proof.ObligeFrameBits
import proofs.«102192_j20822001451042_2_alg».proof.Proof.ObligeFrameIdeal
import proofs.«102192_j20822001451042_2_alg».proof.Proof.WholeResult
import proofs.«102192_j20822001451042_2_alg».proof.Proof.ReferenceSide
import proofs.«102192_j20822001451042_2_alg».proof.Proof.SameFeatures
import Idealize.ShloMosaic.Adequacy
import Idealize.ShloMosaic.Init

noncomputable section

namespace Cert.Proof

open Idealize.ShloMosaic Idealize.SL.Sem

/-- The word-level kernel runs and keeps its arguments: the run with the output window forgotten. -/
theorem frame_kernel : Cert.frame_Kernel := fun m ρ _ =>
  (θ_run Cert.Kernel.defs _ _).mono (fun r h c => Cert.Kernel.Decode.args_kept m Cert.Kernel.Decode.forgetOut r h c)
    (Cert.Kernel.Decode.run_main (F := Bits) m ρ Cert.Kernel.Decode.forgetOut (Cert.Kernel.Decode.obligation_frame m))

/-- The idealized kernel runs and keeps its arguments: its run with the result dropped. -/
theorem frame_kernel_ideal : Cert.frame_KernelIdeal := fun m ρ _ =>
  (θ_run Cert.KernelIdeal.defs _ _).mono (fun _ h c => (h c).2) (Cert.KernelIdeal.Decode.kernel_run m ρ)

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the inner products of the rows of one `z`: the
    kernel's tiles assemble them, the reference's contraction with the transpose spells them, and the two programs'
    host lines compute `z` by one term. -/
theorem algebraic : Cert.algebraic_KernelIdeal_ReferenceIdeal := by
  intro m ρ m' ρ' _ hagree
  refine ⟨fun c => Cert.KernelIdeal.Decode.result m c, Cert.KernelIdeal.Decode.kernel_run m ρ, ?_⟩
  refine (θ_run Cert.ReferenceIdeal.defs _ _).mono (fun _ h c => ⟨(h c).1.trans ?_, (h c).2⟩)
    (Cert.ReferenceIdeal.RefValue.reference_run m' ρ')
  rw [(hagree c).1, (hagree c).2.1, (hagree c).2.2.1, (hagree c).2.2.2.1, (hagree c).2.2.2.2.1, (hagree c).2.2.2.2.2]
  exact congrArg Cert.InnerProduct.gram (Cert.KernelIdeal.Entry.features_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
